-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S5000x1 : Shape := ⟨2, ![5000, 1]⟩
abbrev S5000 : Shape := ⟨1, ![5000]⟩
abbrev S1x1 : Shape := ⟨2, ![1, 1]⟩

abbrev nBuf : Space → Nat
  | .hbm => 84
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x1, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x1, .f32⟩
  | .hbm, ⟨74, _⟩ => ⟨S1700000x1, .f32⟩
  | .hbm, ⟨75, _⟩ => ⟨S1700000x1, .f32⟩
  | .hbm, ⟨76, _⟩ => ⟨S_, .f32⟩
  | .hbm, ⟨77, _⟩ => ⟨S100000x1, .f32⟩
  | .hbm, ⟨78, _⟩ => ⟨S1700000x1, .i32⟩
  | .hbm, ⟨79, _⟩ => ⟨S100000x1, .f32⟩
  | .hbm, ⟨80, _⟩ => ⟨S1x1, .f32⟩
  | .hbm, ⟨81, _⟩ => ⟨S100000x1, .f32⟩
  | .hbm, ⟨82, _⟩ => ⟨S100000x1, .f32⟩
  | .hbm, ⟨83, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x1, .f32⟩
  | .local _ .vmem, ⟨9, _⟩ => ⟨S5000x1, .f32⟩
  | .local _ .vmem, ⟨10, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S128x1_S128 : S128x1.ShapeCasts S128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x1, .f32⟩
  | .hbm, ⟨98, _⟩ => ⟨S1700000x1, .f32⟩
  | .hbm, ⟨99, _⟩ => ⟨S1700000x1, .f32⟩
  | .hbm, ⟨100, _⟩ => ⟨S_, .f32⟩
  | .hbm, ⟨101, _⟩ => ⟨S100000x1, .f32⟩
  | .hbm, ⟨102, _⟩ => ⟨S1700000x1, .i32⟩
  | .hbm, ⟨103, _⟩ => ⟨S100000x1, .f32⟩
  | .hbm, ⟨104, _⟩ => ⟨S1x1, .f32⟩
  | .hbm, ⟨105, _⟩ => ⟨S100000x1, .f32⟩
  | .hbm, ⟨106, _⟩ => ⟨S100000x1, .f32⟩
  | .hbm, ⟨107, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KRun.lean ====
/-
  The idealized kernel's run, with its RESULT read at the end. The program is three stretches of host operations, the
  first pallas_call, a stretch, the second pallas_call, and a last stretch; the contents of the TensorCore's buffers at
  each of these boundaries are a fold from the launch memory (`Gen.W0` … `Gen.W7`: a stretch applies its operations, a
  pallas_call replaces its output array by what its grid points wrote back and leaves every other buffer alone). Every
  weakly fair execution ends with each unscoped buffer at its contents at the last boundary; read at the result buffer
  that is the value of the program, and at an argument buffer it is the launch contents.
-/
import proofs.«160885_j77197742178451_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents of it and the arguments as launched. -/
theorem run : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Stages.lean ====
/-
  The host side of the two-layer graph convolution, stage by stage, as functions of arrays.

  Both programs build the same edge lists from `edge_index` (its row 0, resp. row 1, followed by 0 … n-1: the self
  loops), count each node's incoming edges by a scatter-add of ones (`degree`), take `deg^(-1/2)` where the degree is
  positive (`dinv`), and weigh edge e by `dinv[src e] · dinv[dst e]` (`edgeNorm`). A layer then gathers the rows of its
  transformed features at the sources, scales each by its edge's weight and scatter-adds them at the destinations:
  `aggregate` for the 128-wide first layer, `output` for the 1-wide second layer followed by the bias and the squeeze.
  The two programs differ only in how the two dense transforms between these stages are computed, so every stage here is
  kept closed: nothing below looks inside a gather or a scatter.
-/
import proofs.«160885_j77197742178451_1_alg».proof.Proof.Gen.ReferenceIdeal

noncomputable section

namespace Cert.Bridge.Stages

open Idealize.ShloMosaic Cert.ReferenceIdeal Cert.ReferenceIdeal.Gen

variable {F : FTy → Type} [FloatOps F]

/-- The sources: row 0 of `edge_index` followed by the self loops 0 … n-1. -/
def srcs (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The destinations: row 1 of `edge_index` followed by the self loops 0 … n-1. -/
def dsts (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A list of node numbers as gather indices: a negative entry counted from the end, then a unit axis added. -/
def wrap (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- Each node's number of incoming edges, self loop included. -/
def degree (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- `deg^(-1/2)` where the degree is positive, else 0. -/
def dinv (dst : (⟨S1700000, .i32⟩ : BufTy).Contents (Elt F)) : (⟨S100000, .f32⟩ : BufTy).Contents (Elt F) :=
  select (cmpf (F := F) .ogt (degree (F := F) dst) (broadcastInDim S100000 ![] bcast_S_S100000 (constant S_ .f32 0x00000000#32))) (Host.rsqrt (degree (F := F) dst)) (broadcastInDim S100000 ![] bcast_S_S100000 (id (constant S_ .f32 0x00000000#32)))

/-- Edge e's weight `dinv[src e] · dinv[dst e]`. -/
def edgeNorm (src dst : (⟨S1700000, .i32⟩ : BufTy).Contents (Elt F)) : (⟨S1700000, .f32⟩ : BufTy).Contents (Elt F) :=
  mulf (Host.gather gather_S100000_S1700000x1_S1700000_n_0_n_n_0_1_1 (dinv (F := F) dst) (wrap (F := F) src)) (Host.gather gather_S100000_S1700000x1_S1700000_n_0_n_n_0_1_1 (dinv (F := F) dst) (wrap (F := F) dst))

/-- The first layer's message passing: row `dst e` of the result collects `hw[src e, :] · nrm e` over the edges e. -/
def aggregate (hw : (⟨S100000x128, .f32⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 hw (wrap (F := F) src)) (broadcastInDim S1700000x128 ![0, 1] bcast_S1700000x1_S1700000x128_0_1 (broadcastInDim S1700000x1 ![0] bcast_S1700000_S1700000x1_0 nrm)))

/-- The second layer's message passing on the one-column features, then the bias `b2` and the unit axis dropped. -/
def output (hw : (⟨S100000x1, .f32⟩ : BufTy).Contents (Elt F)) (src dst : (⟨S1700000, .i32⟩ : BufTy).Contents (Elt F))
    (nrm : (⟨S1700000, .f32⟩ : BufTy).Contents (Elt F)) (b2 : (⟨S1, .f32⟩ : BufTy).Contents (Elt F)) : (⟨S100000, .f32⟩ : BufTy).Contents (Elt F) :=
  shapeCast _ (addf (Host.scatterAdd scatter_S100000x1_S1700000x1_S1700000x1_1_0_0_1 (broadcastInDim S100000x1 ![] bcast_S_S100000x1 (constant S_ .f32 0x00000000#32)) (broadcastInDim S1700000x1 ![0] bcast_S1700000_S1700000x1_0 dst) (mulf (Host.gather gather_S100000x1_S1700000x1_S1700000x1_1_0_n_n_0_1_11 hw (wrap (F := F) src)) (broadcastInDim S1700000x1 ![0] bcast_S1700000_S1700000x1_0 nrm))) (broadcastInDim S100000x1 ![0, 1] bcast_S1x1_S100000x1_0_1 (broadcastInDim S1x1 ![1] bcast_S1_S1x1_1 b2))) shapeCasts_S100000x1_S100000

/-- The reference's first dense transform, `x · W1`. -/
def dense1 (x : (⟨S100000x128, .f32⟩ : BufTy).Contents (Elt F)) (w1 : (⟨S128x128, .f32⟩ : BufTy).Contents (Elt F)) : (⟨S100000x128, .f32⟩ : BufTy).Contents (Elt F) :=
  Host.dotGeneral dot_S100000x128_S128x128_S100000x128_1_0_0_1_n_n none x w1

/-- The reference's second dense transform, `max(a + b1, 0) · W2`, the bias row spread over the nodes. -/
def dense2 (a : (⟨S100000x128, .f32⟩ : BufTy).Contents (Elt F)) (b1 : (⟨S128, .f32⟩ : BufTy).Contents (Elt F)) (w2 : (⟨S128x1, .f32⟩ : BufTy).Contents (Elt F)) : (⟨S100000x1, .f32⟩ : BufTy).Contents (Elt F) :=
  Host.dotGeneral dot_S100000x128_S128x1_S100000x1_1_0_0_1_n_n none (maximumf (addf a (broadcastInDim S100000x128 ![0, 1] bcast_S1x128_S100000x128_0_1 (broadcastInDim S1x128 ![1] bcast_S128_S1x128_1 b1))) (broadcastInDim S100000x128 ![] bcast_S_S100000x128 (constant S_ .f32 0x00000000#32))) w2

/-- The whole network as the reference computes it, from the layers' two dense transforms `d1`, `d2` given as parameters
    (the reference's are `dense1`, `dense2`; the kernel supplies its own). -/
def network (d1 : (⟨S100000x128, .f32⟩ : BufTy).Contents (Elt F)) (d2 : (⟨S100000x128, .f32⟩ : BufTy).Contents (Elt F) → (⟨S100000x1, .f32⟩ : BufTy).Contents (Elt F))
    (ei : (⟨S2x1600000, .i32⟩ : BufTy).Contents (Elt F)) (b2 : (⟨S1, .f32⟩ : BufTy).Contents (Elt F)) : (⟨S100000, .f32⟩ : BufTy).Contents (Elt F) :=
  output (F := F) (d2 (aggregate (F := F) d1 (srcs (F := F) ei) (dsts (F := F) ei) (edgeNorm (F := F) (srcs (F := F) ei) (dsts (F := F) ei))))
    (srcs (F := F) ei) (dsts (F := F) ei) (edgeNorm (F := F) (srcs (F := F) ei) (dsts (F := F) ei)) b2

end Cert.Bridge.Stages

end
-- ==== Proof.RefValue.lean ====
/-
  The reference's result is the network of Stages.lean with the reference's own two dense transforms: its composed
  term of the arguments (the run read back) is that composition spelt out, the edge weights computed once per layer
  from the same edge lists.
-/
import proofs.«160885_j77197742178451_1_alg».proof.Proof.RefRun
import proofs.«160885_j77197742178451_1_alg».proof.Proof.Stages

set_option maxRecDepth 16384

noncomputable section

namespace Cert.ReferenceIdeal.RefValue

open Cert.ReferenceIdeal Cert.ReferenceIdeal.Gen Cert.ReferenceIdeal.ValueP Cert.Bridge
open Idealize.ShloMosaic Idealize.ShloMosaic.TcCoe Idealize.SL.Sem

variable {F : FTy → Type} [FloatOps F]

set_option maxHeartbeats 4000000 in
/-- The run's result term is the network: both layers' message passing over the same edge lists and weights, around
    `x · W1` and `max(· + b1, 0) · W2`. -/
theorem result_eq (m : (ℓ : Loc nD τ sig) → Buf (Elt F) ℓ) (c : Dev nD) :
    res_main_v79 m c
      = Stages.network (F := F) (Stages.dense1 (F := F) (m ((c.tc : Thread nD τ).loc main_arg0)) (m ((c.tc : Thread nD τ).loc main_arg2)))
          (fun a => Stages.dense2 (F := F) a (m ((c.tc : Thread nD τ).loc main_arg3)) (m ((c.tc : Thread nD τ).loc main_arg4)))
          (m ((c.tc : Thread nD τ).loc main_arg1)) (m ((c.tc : Thread nD τ).loc main_arg5)) := by
  unfold res_main_v79
  rfl

end Cert.ReferenceIdeal.RefValue

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.Layer1.lean ====
/-
  The first kernel region's result as a matrix product. Its grid has 20 points; point t stages rows 5000 t … 5000 t + 4999 of
  the 100000×128 left operand and the whole 128×128 right operand, multiplies the two blocks into a zero accumulator
  (both rounded to bf16 first, which at the extended reals changes nothing) and writes the 5000×128 result back as rows
  5000 t … 5000 t + 4999 of the output array. Entry (r, q) of what point t writes is therefore Σ_k X[5000 t + r, k] · W[k, q]:
  block t of the one array G = X · W. The 20 blocks cover the output array (row p lies in block p / 5000), so after the last
  point the array is G, whatever the buffers held when the region was entered.
-/
import proofs.«160885_j77197742178451_1_alg».proof.Proof.Gen.KernelIdeal.Frame
import proofs.«160885_j77197742178451_1_alg».proof.Proof.LibMatmul
import Idealize.ShloMosaic.Lib.Pipeline.Value
import Idealize.ShloMosaic.Lib.ValueIdx
import Idealize.ShloMosaic.PureOps.Ideal.Laws

set_option maxRecDepth 16384

noncomputable section

open scoped BigOperators

namespace Cert.Bridge.Layer1

open Cert.KernelIdeal Cert.KernelIdeal.Gen Idealize.ShloMosaic Idealize.ShloMosaic.ValueIdx Idealize.ShloMosaic.TcCoe Idealize.SL.Sem
open Idealize.ShloMosaic.Pipeline (Dat)

/-! ## The body's product at an index -/

/-- The body's value at row r, column q of its block: the sum over k of x0[r,k] * x1[k,q]
    (rounding to bf16 is the identity at the extended reals; the accumulator starts at zero). -/
theorem pay_apply (x0 : Vec Ideal S5000x128 .f32) (x1 : Vec Ideal S128x128 .f32) (r : Fin 5000) (q : Fin 128) :
    k0_pay1 x0 x1 (ix2 r q) = ∑ k : Fin 128, x0 (ix2 r k) * x1 (ix2 k q) := by
  unfold k0_pay1
  exact Cert.Bridge.LibMatmul.matmul_zero_apply (M := 5000) (K := 128) (N := 128) none _ _ r q

/-! ## The three windows' block indices over the 20 points -/

theorem hz : (![0, 0] : Fin 2 → Nat) = fun _ => 0 := funext fun a => by fin_cases a <;> rfl

/-- At point t the row-block windows (the left operand's and the output's) sit at block (t, 0), the right
    operand's window at block (0, 0): decided over the 20 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the two staged arrays, entry by entry. -/
def G (A : S100000x128.Idx → EReal) (B : S128x128.Idx → EReal) : S100000x128.Idx → EReal :=
  fun i => ∑ k : Fin 128, A (ix2 (i 0 : Fin 100000) k) * B (ix2 k (i 1 : Fin 128))

/-- The product read at an entry. -/
theorem G_apply (A : S100000x128.Idx → EReal) (B : S128x128.Idx → EReal) (p : Fin 100000) (q : Fin 128) :
    G A B (ix2 p q) = ∑ k : Fin 128, A (ix2 p k) * B (ix2 k q) := rfl

variable (V : (c : Dev nD) → (b : Ref sig .tc) → Buf (Elt Ideal) ((c : Thread nD τ).loc b))

/-! ## The input blocks at a point, read where they sit in their arrays -/

/-- Row r, column k of the left operand's block at point t is row 5000 t + r, column k of its array. -/
theorem read_lhs (c : Dev nD) (t : Fin cfg0.N) (r : Fin 5000) (k : Fin 128) (h : t.val * 5000 + r.val < 100000) :
    iblk0 V c 0 t (ix2 r k) = (V c main_arg0 : S100000x128.Idx → EReal) (ix2 (⟨t.val * 5000 + r.val, h⟩ : Fin 100000) k) := by
  obtain ⟨e00, e01, -, -, -, -⟩ := idx_facts t
  show (V c main_arg0 : S100000x128.Idx → EReal) (((cfg0.win 0).blk t).view.emb (ix2 r k)) = _
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

/-- The right operand's block at every point is its whole array. -/
theorem read_rhs (c : Dev nD) (t : Fin cfg0.N) (k q : Fin 128) :
    iblk0 V c 1 t (ix2 k q) = (V c main_arg2 : S128x128.Idx → EReal) (ix2 k q) := by
  obtain ⟨-, -, e10, e11, -, -⟩ := idx_facts t
  show (V c main_arg2 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-! ## What a point writes back -/

/-- What point t writes back is block t of the product of the two staged arrays. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e20, e21⟩ := idx_facts t
  have ht : t.val < 20 := t.isLt
  funext j
  have hj0 : (j 0).val < 5000 := (j 0).isLt
  have hj1 : (j 1).val < 128 := (j 1).isLt
  have hr : t.val * 5000 + (j 0).val < 100000 := by omega
  have hx : (cfg0.win 2).xinj (grid0.coords t) j = ix2 (⟨(j 0).val, hj0⟩ : Fin 5000) (⟨(j 1).val, hj1⟩ : Fin 128) :=
    funext fun a => by match a with | ⟨0, _⟩ => rfl | ⟨1, _⟩ => rfl
  have hy : ((cfg0.win 2).blk t).view.emb j = ix2 (⟨t.val * 5000 + (j 0).val, hr⟩ : Fin 100000) (⟨(j 1).val, hj1⟩ : Fin 128) := by
    funext a; apply Fin.ext
    match a with
    | ⟨0, _⟩ => show win0_2.index t (0 : Fin 2) * 5000 + 1 * (j 0).val = t.val * 5000 + (j 0).val; omega
    | ⟨1, _⟩ => show win0_2.index t (1 : Fin 2) * 128 + 1 * (j 1).val = (j 1).val; omega
  show k0_pay1 (iblk0 V c 0 t) (iblk0 V c 1 t) ((cfg0.win 2).xinj (grid0.coords t) j)
    = G (V c main_arg0) (V c main_arg2) (((cfg0.win 2).blk t).view.emb j)
  rw [hx, hy, pay_apply, G_apply]
  refine Finset.sum_congr rfl fun k _ => ?_
  rw [read_lhs V c t ⟨(j 0).val, hj0⟩ k hr, read_rhs V c t k ⟨(j 1).val, hj1⟩]

/-! ## The 20 blocks cover the array -/

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row p of the array lies in the block of point p / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hq : (i 0).val / 5000 < 20 := by omega
  refine ⟨⟨(i 0).val / 5000, hq⟩, flush0_2 _, ?_⟩
  obtain ⟨-, -, -, -, e20, e21⟩ := idx_facts ⟨(i 0).val / 5000, hq⟩
  have e20' : win0_2.index ⟨(i 0).val / 5000, hq⟩ (0 : Fin 2) = (i 0).val / 5000 := e20
  rw [mem_blk]
  intro a
  match a with
  | ⟨0, _⟩ =>
    show win0_2.index ⟨(i 0).val / 5000, hq⟩ (0 : Fin 2) * 5000 ≤ (i 0).val ∧ (i 0).val < win0_2.index ⟨(i 0).val / 5000, hq⟩ (0 : Fin 2) * 5000 + 5000
    omega
  | ⟨1, _⟩ =>
    show win0_2.index ⟨(i 0).val / 5000, hq⟩ (1 : Fin 2) * 128 ≤ (i 1).val ∧ (i 1).val < win0_2.index ⟨(i 0).val / 5000, hq⟩ (1 : Fin 2) * 128 + 128
    omega

/-! ## The array after the 20 points -/

/-- Region 0's output array after all 20 points have written back is the product of the two staged arrays. -/
theorem region0_eq (c : Dev nD) : (dat0 V c).arrAt 2 cfg0.N = G (V c main_arg0) (V c main_arg2) :=
  (dat0 V c).arrAt_eq_of_cover 2 (G (V c main_arg0) (V c main_arg2)) (fun t _ => flushed_eq V c t) cover

/-- Entry (p, q) of region 0's output array after all 20 points have written back is the sum over k of X[p,k] * W[k,q],
    X and W the arrays its two input windows stage, whatever the contents V the region is entered with. (The product
    is written with its type, the extended reals, explicit: the entries' own types only reduce to it.) -/
theorem region0_apply (V : (c : Dev nD) → (b : Ref sig .tc) → Buf (Elt Ideal) ((c : Thread nD τ).loc b)) (c : Dev nD) (p : Fin 100000) (q : Fin 128) :
    ((dat0 V c).arrAt 2 cfg0.N : S100000x128.Idx → EReal) (ix2 p q)
      = ∑ k : Fin 128, @HMul.hMul EReal EReal EReal _ ((V c main_arg0 : S100000x128.Idx → EReal) (ix2 p k)) ((V c main_arg2 : S128x128.Idx → EReal) (ix2 k q)) :=
  (congrFun (region0_eq V c) (ix2 p q)).trans (G_apply (V c main_arg0) (V c main_arg2) p q)

/-- The same over named arrays: with X and W the contents of the two staged arrays, entry (p, q) of region 0's output
    array after all 20 points have written back is the sum over k of X[p,k] * W[k,q]. -/
theorem region0_apply_sum (V : (c : Dev nD) → (b : Ref sig .tc) → Buf (Elt Ideal) ((c : Thread nD τ).loc b)) (c : Dev nD)
    (X : S100000x128.Idx → EReal) (W : S128x128.Idx → EReal) (hX : V c main_arg0 = X) (hW : V c main_arg2 = W)
    (p : Fin 100000) (q : Fin 128) :
    ((dat0 V c).arrAt 2 cfg0.N : S100000x128.Idx → EReal) (ix2 p q) = ∑ k : Fin 128, X (ix2 p k) * W (ix2 k q) := by
  subst hX hW
  exact (congrFun (region0_eq V c) (ix2 p q)).trans (G_apply (V c main_arg0) (V c main_arg2) p q)

end Cert.Bridge.Layer1

end
-- ==== Proof.Layer2.lean ====
/-
  The second layer of the kernel, read off its 20 row blocks. The region's body takes a 5000 x 128 block a of the
  array A, the whole 1 x 128 row b of B and the whole 128 x 1 column w of W, and stores, at row r of a 5000 x 1 block,
  the sum over the 128 features k of max(a[r, k] + b[0, k], 0) * w[k, 0]: it adds the row b to every row of a, takes
  the maximum with 0, multiplies every row by w laid out as a row, and sums each row. At the extended reals the
  addition, the maximum, the product and the row sum are the extended reals' own, so the stored value is that sum
  exactly. Grid point t stages rows 5000 t … 5000 t + 4999 of A and writes back the same rows of the output, the 20
  blocks tile the 100000 rows, and so after the last write-back entry (p, 0) of the output array is
  the sum over k of max(A[p, k] + B[0, k], 0) * W[k, 0], whatever the buffers held when the region was entered.
-/
import proofs.«160885_j77197742178451_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge.Layer2

open Cert.KernelIdeal Cert.KernelIdeal.Gen Idealize.ShloMosaic Idealize.ShloMosaic.ValueIdx Idealize.ShloMosaic.TcCoe Idealize.SL.Sem
open Idealize.ShloMosaic.Pipeline (Dat)

/-! ## The layout operations of the body, read at coordinates -/

/-- A column [a, 1] cast to the vector [a] reads, at i, the operand at (i, 0): both have row-major position i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to the column [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The index of the 5000 x 128 block over row r with coordinate k inserted on the reduced (feature) axis is (r, k). -/
theorem lift_row (h : S5000x128.Reduces [1] S5000) (r : Fin 5000) (k : Fin 128) :
    h.lift (ix1 r) k = ix2 r k := by
  funext c
  apply Fin.ext
  match c with
  | ⟨0, _⟩ => rfl
  | ⟨1, _⟩ => rfl

/-- The sum over the feature axis of a 5000 x 128 block, read at row r: the sum over k of the block at (r, k). -/
theorem rowSum_apply (src : FVec Ideal S5000x128 .f32) (h : S5000x128.Reduces [1] S5000) (hφ : FKind.Formats .f32)
    (hacc : (0x00000000#32 : BitVec 32) = FKind.add.neutral .f32 hφ) (r : Fin 5000) :
    multiReduction (F := Ideal) .add [1] S5000 src 0x00000000#32 h hφ hacc (ix1 r) = ∑ k : Fin 128, src (ix2 r k) :=
  (Ideal.multiReduction_add_single src 0x00000000#32 h hφ hacc (ix1 r)).trans
    (Finset.sum_congr rfl fun k _ => congrArg src (lift_row h r k))

/-! ## The body's stored value, at one row -/

/-- The f32 zero word a scalar constant is read from is the extended real 0. -/
theorem scalar_zero : (Scalar.ofBits (F := Ideal) .f32 0x00000000#32 : Ideal .f32) = (0 : EReal) :=
  Ideal.ofBits_zero_f32

/-- The value the body stores at row r of its 5000 x 1 block: the sum over the 128 features k of
    max(a[r, k] + b[0, k], 0) * w[k, 0], a the 5000 x 128 block, b the 1 x 128 row, w the 128 x 1 column it loaded. -/
theorem pay_apply (v0 : Vec Ideal S5000x128 .f32) (v2 : Vec Ideal S1x128 .f32) (v8 : Vec Ideal S128x1 .f32) (r : Fin 5000) :
    (k1_pay1 (F := Ideal) v0 v2 v8 : S5000x1.Idx → EReal) (ix2 r (0 : Fin 1))
      = ∑ k : Fin 128, max ((v0 : S5000x128.Idx → EReal) (ix2 r k) + (v2 : S1x128.Idx → EReal) (ix2 (0 : Fin 1) k)) 0
          * (v8 : S128x1.Idx → EReal) (ix2 k (0 : Fin 1)) := by
  unfold k1_pay1
  refine (shapeCast_a_a1_apply _ _ r (0 : Fin 1)).trans ?_
  refine (rowSum_apply _ _ _ _ r).trans ?_
  refine Finset.sum_congr rfl fun k _ => ?_
  rw [mulf_apply, maximumf_apply, addf_apply, broadcast_apply, shapeCast_self, shapeCast_self,
    broadcastTo_1b_ab_apply, broadcastTo_1b_ab_apply, shapeCast_a_1a_apply, shapeCast_a1_a_apply, scalar_zero]

/-! ## The value of one row -/

/-- Row p of the layer: the sum over the 128 features k of max(A[p, k] + B[0, k], 0) * W[k, 0]. -/
def reluDot (A : S100000x128.Idx → EReal) (B : S1x128.Idx → EReal) (W : S128x1.Idx → EReal) (p : Fin 100000) : EReal :=
  ∑ k : Fin 128, max (A (ix2 p k) + B (ix2 (0 : Fin 1) k)) 0 * W (ix2 k (0 : Fin 1))

/-! ## From the 20 blocks to the array -/

section Region

variable (V : (c : Dev nD) → (b : Ref sig .tc) → Buf (Elt Ideal) ((c : Thread nD τ).loc b))

/-- The 100000 x 1 array of the row values of the arrays A, B, W the three input windows stage, as the region finds them. -/
def G (c : Dev nD) : S100000x1.Idx → EReal :=
  fun i => reluDot (V c main_v43) (V c main_v44) (V c main_arg4) (i 0 : Fin 100000)

theorem hz : (![0, 0] : Fin 2 → Nat) = fun _ => 0 := funext fun a => by fin_cases a <;> rfl

/-- The printed index maps, decided over the 20 grid points: the row-block windows (the input A and the output) are at
    block (t, 0) at point t, the whole-array windows (B and W) at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 20 := lt_of_lt_of_eq t.isLt N_1

/-- Element (r, k) of the block of A at point t is A[5000 t + r, k]. -/
theorem blockA_apply (c : Dev nD) (t : Fin cfg1.N) (r : Fin 5000) (k : Fin 128) :
    (iblk1 V c 0 t : S5000x128.Idx → EReal) (ix2 r k)
      = (V c main_v43 : S100000x128.Idx → EReal) (ix2 (⟨t.val * 5000 + r.val, by have := point_lt t; omega⟩ : Fin 100000) k) := by
  show (V c main_v43 : S100000x128.Idx → EReal) (((cfg1.win 0).blk t).view.emb (ix2 r k)) = _
  refine congrArg _ ?_
  obtain ⟨e0, e1, -⟩ := idx_facts t
  funext a
  apply Fin.ext
  match a with
  | ⟨0, _⟩ => show win1_0.index t (0 : Fin 2) * 5000 + 1 * r.val = t.val * 5000 + r.val; omega
  | ⟨1, _⟩ => show win1_0.index t (1 : Fin 2) * 128 + 1 * k.val = k.val; omega

/-- Element (0, k) of the block of B at any point is B[0, k]. -/
theorem blockB_apply (c : Dev nD) (t : Fin cfg1.N) (k : Fin 128) :
    (iblk1 V c 1 t : S1x128.Idx → EReal) (ix2 (0 : Fin 1) k) = (V c main_v44 : S1x128.Idx → EReal) (ix2 (0 : Fin 1) k) := by
  show (V c main_v44 : S1x128.Idx → EReal) (((cfg1.win 1).blk t).view.emb (ix2 (0 : Fin 1) k)) = _
  refine congrArg _ ?_
  obtain ⟨-, -, e2, e3, -⟩ := idx_facts t
  funext a
  apply Fin.ext
  match a with
  | ⟨0, _⟩ => show win1_1.index t (0 : Fin 2) * 1 + 1 * 0 = 0; omega
  | ⟨1, _⟩ => show win1_1.index t (1 : Fin 2) * 128 + 1 * k.val = k.val; omega

/-- Element (k, 0) of the block of W at any point is W[k, 0]. -/
theorem blockW_apply (c : Dev nD) (t : Fin cfg1.N) (k : Fin 128) :
    (iblk1 V c 2 t : S128x1.Idx → EReal) (ix2 k (0 : Fin 1)) = (V c main_arg4 : S128x1.Idx → EReal) (ix2 k (0 : Fin 1)) := by
  show (V c main_arg4 : S128x1.Idx → EReal) (((cfg1.win 2).blk t).view.emb (ix2 k (0 : Fin 1))) = _
  refine congrArg _ ?_
  obtain ⟨-, -, -, -, e4, e5, -⟩ := idx_facts t
  funext a
  apply Fin.ext
  match a with
  | ⟨0, _⟩ => show win1_2.index t (0 : Fin 2) * 128 + 1 * k.val = k.val; omega
  | ⟨1, _⟩ => show win1_2.index t (1 : Fin 2) * 1 + 1 * 0 = 0; omega

/-- Element (r, 0) of the output's block at point t sits at (5000 t + r, 0) in the array. -/
theorem blockOut_emb (t : Fin cfg1.N) (r : Fin 5000) :
    ((cfg1.win 3).blk t).view.emb (ix2 r (0 : Fin 1))
      = ix2 (⟨t.val * 5000 + r.val, by have := point_lt t; omega⟩ : Fin 100000) (0 : Fin 1) := by
  obtain ⟨-, -, -, -, -, -, e6, e7⟩ := idx_facts t
  funext a
  apply Fin.ext
  match a with
  | ⟨0, _⟩ => show win1_3.index t (0 : Fin 2) * 5000 + 1 * r.val = t.val * 5000 + r.val; omega
  | ⟨1, _⟩ => show win1_3.index t (1 : Fin 2) * 1 + 1 * 0 = 0; omega

/-- What point t writes back is block t of the array of row values. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x1) hz]
  show (fun j : S5000x1.Idx => (k1_pay1 (F := Ideal) (iblk1 V c 0 t) (iblk1 V c 1 t) (iblk1 V c 2 t) : S5000x1.Idx → EReal) j)
    = fun j : S5000x1.Idx => G V c (((cfg1.win 3).blk t).view.emb j)
  funext j
  obtain ⟨r, u, rfl⟩ : ∃ (r : Fin 5000) (u : Fin 1), j = ix2 r u := ⟨j 0, j 1, eq_ix2 j⟩
  obtain rfl : u = 0 := Subsingleton.elim _ _
  rw [pay_apply, blockOut_emb]
  show _ = reluDot (V c main_v43) (V c main_v44) (V c main_arg4) (⟨t.val * 5000 + r.val, _⟩ : Fin 100000)
  unfold reluDot
  refine Finset.sum_congr rfl fun k _ => ?_
  rw [blockA_apply, blockB_apply, blockW_apply]

/-- An index of the array is in point t's block iff each coordinate is in the block's range on its axis. -/
theorem mem_blk (t : Fin cfg1.N) (i : S100000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v45).slice (win1_3.rect t)).set ↔ _
  rw [View.set_slice_whole, Rect.mem_set_unit]
  exact Iff.rfl

/-- Every index of the array is in some point's block: row i is in the block of point i / 5000. -/
theorem cover (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 1 ≤ (i 1).val ∧ (i 1).val < win1_3.index t (1 : Fin 2) * 1 + 1; omega

/-- After all 20 points have written back, the output array is the array of row values. -/
theorem final (c : Dev nD) : (dat1 V c).arrAt 3 cfg1.N = G V c :=
  (dat1 V c).arrAt_eq_of_cover 3 (G V c) (fun t _ => flushed_eq V c t) cover

/-- Entry (p, 0) of region 1's output array after all 20 points have written back is the sum over k of
    max(A[p, k] + B[0, k], 0) * W[k, 0], A, B, W the arrays its three input windows stage, whatever the contents V the
    region is entered with. -/
theorem region1_apply (c : Dev nD) (p : Fin 100000) :
    ((dat1 V c).arrAt 3 cfg1.N : S100000x1.Idx → EReal) (ix2 p (0 : Fin 1))
      = reluDot (V c main_v43) (V c main_v44) (V c main_arg4) p :=
  congrFun (final V c) (ix2 p (0 : Fin 1))

/-- The same with the three arrays named: if the region finds A, B, W in the arrays its input windows stage, entry
    (p, 0) of its output array ends as the sum over k of max(A[p, k] + B[0, k], 0) * W[k, 0]. -/
theorem region1_apply_sum (c : Dev nD) (A : S100000x128.Idx → EReal) (B : S1x128.Idx → EReal) (W : S128x1.Idx → EReal)
    (hA : V c main_v43 = A) (hB : V c main_v44 = B) (hW : V c main_arg4 = W) (p : Fin 100000) :
    ((dat1 V c).arrAt 3 cfg1.N : S100000x1.Idx → EReal) (ix2 p (0 : Fin 1))
      = ∑ k : Fin 128, max (A (ix2 p k) + B (ix2 (0 : Fin 1) k)) 0 * W (ix2 k (0 : Fin 1)) := by
  subst hA hB hW
  exact region1_apply V c p

end Region

end Cert.Bridge.Layer2

end
-- ==== Proof.KChain.lean ====
/-
  The idealized kernel's host side, read back. Through the fold of buffer contents from the launch to the return
  (`Gen.W0` … `Gen.W7`), the buffers the two pallas_calls and the last stretch read hold the shared stages of the graph
  convolution: before the first call the two edge lists and the edge weights; after it, the first layer's
  aggregation of whatever array the call left; after the second call, the output stage of whatever array that call
  left. The calls' own arrays stay abstract here (`Dat.arrAt` of each region's proof data).
-/
import proofs.«160885_j77197742178451_1_alg».proof.Proof.Gen.KernelIdeal.Frame
import proofs.«160885_j77197742178451_1_alg».proof.Proof.Stages
import Idealize.ShloMosaic.Lib.StableHlo.Run

set_option maxRecDepth 16384

noncomputable section

namespace Cert.KernelIdeal.Chain

open Cert.KernelIdeal Cert.KernelIdeal.Gen Cert.Bridge
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Before the first call -/

/-- The source list: row 0 of `edge_index`, then the self loops. -/
theorem W3_src : W3 m ρ c (Proc.devRef .tc main_v3) = Stages.srcs (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The destination list: row 1 of `edge_index`, then the self loops. -/
theorem W3_dst : W3 m ρ c (Proc.devRef .tc main_v6) = Stages.dsts (F := F) (m ((c : Thread nD τ).loc main_arg1)) := by
  show StableHlo.after hostOps0_2 (StableHlo.after hostOps0_1 (StableHlo.after hostOps0 (W0 m ρ c))) (Proc.devRef .tc main_v6) = _
  after_results_simp
  rfl

/-- The edge weights `dinv[src] · dinv[dst]`. -/
theorem W3_nrm : W3 m ρ c (Proc.devRef .tc main_v29)
    = Stages.edgeNorm (F := F) (Stages.srcs (F := F) (m ((c : Thread nD τ).loc main_arg1))) (Stages.dsts (F := F) (m ((c : Thread nD τ).loc main_arg1))) := by
  show StableHlo.after hostOps0_2 (StableHlo.after hostOps0_1 (StableHlo.after hostOps0 (W0 m ρ c))) (Proc.devRef .tc main_v29) = _
  after_results_simp
  rfl

/-- An argument array is as launched when the first call is entered. -/
theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-! ## Across the first call, and the stretch after it -/

/-- The first call leaves its output array at what its grid points wrote back … -/
theorem W4_out : W4 m ρ c (Proc.devRef .tc main_v30) = (dat0 (V3 m ρ) c).arrAt 2 cfg0.N := W4_arr m ρ c 2

/-- The first layer's aggregation of the first call's output, over the edge lists and weights found before the call. -/
theorem W5_agg : W5 m ρ c (Proc.devRef .tc main_v43)
    = Stages.aggregate (F := F) (W4 m ρ c (Proc.devRef .tc main_v30)) (W4 m ρ c (Proc.devRef .tc main_v3)) (W4 m ρ c (Proc.devRef .tc main_v6)) (W4 m ρ c (Proc.devRef .tc main_v29)) := by
  show StableHlo.after hostOps1 (W4 m ρ c) (Proc.devRef .tc main_v43) = _
  after_results_simp <;> rfl

/-- The first layer's bias as a 1×128 row. -/
theorem W5_bias : W5 m ρ c (Proc.devRef .tc main_v44) = shapeCast S1x128 (W4 m ρ c (Proc.devRef .tc main_arg3)) shapeCasts_S128_S1x128 := by
  show StableHlo.after hostOps1 (W4 m ρ c) (Proc.devRef .tc main_v44) = _
  after_results_simp <;> rfl

/-- The stretch between the calls writes none of these. -/
theorem W5_keep_v3 : W5 m ρ c (Proc.devRef .tc main_v3) = W4 m ρ c (Proc.devRef .tc main_v3) := by
  show StableHlo.after hostOps1 (W4 m ρ c) (Proc.devRef .tc main_v3) = _
  after_results_simp <;> rfl
theorem W5_keep_v6 : W5 m ρ c (Proc.devRef .tc main_v6) = W4 m ρ c (Proc.devRef .tc main_v6) := by
  show StableHlo.after hostOps1 (W4 m ρ c) (Proc.devRef .tc main_v6) = _
  after_results_simp <;> rfl
theorem W5_keep_v29 : W5 m ρ c (Proc.devRef .tc main_v29) = W4 m ρ c (Proc.devRef .tc main_v29) := by
  show StableHlo.after hostOps1 (W4 m ρ c) (Proc.devRef .tc main_v29) = _
  after_results_simp <;> rfl
theorem W5_keep_arg4 : W5 m ρ c (Proc.devRef .tc main_arg4) = W4 m ρ c (Proc.devRef .tc main_arg4) := by
  show StableHlo.after hostOps1 (W4 m ρ c) (Proc.devRef .tc main_arg4) = _
  after_results_simp <;> rfl
theorem W5_keep_arg5 : W5 m ρ c (Proc.devRef .tc main_arg5) = W4 m ρ c (Proc.devRef .tc main_arg5) := by
  show StableHlo.after hostOps1 (W4 m ρ c) (Proc.devRef .tc main_arg5) = _
  after_results_simp <;> rfl

/-! ## Across the second call, and the last stretch -/

/-- The second call leaves its output array at what its grid points wrote back. -/
theorem W6_out : W6 m ρ c (Proc.devRef .tc main_v45) = (dat1 (V5 m ρ) c).arrAt 3 cfg1.N := W6_arr m ρ c 3

/-- The program's result: the output stage of the second call's array. -/
theorem W7_out : W7 m ρ c (Proc.devRef .tc main_v61)
    = Stages.output (F := F) (W6 m ρ c (Proc.devRef .tc main_v45)) (W6 m ρ c (Proc.devRef .tc main_v3)) (W6 m ρ c (Proc.devRef .tc main_v6)) (W6 m ρ c (Proc.devRef .tc main_v29)) (W6 m ρ c (Proc.devRef .tc main_arg5)) := by
  show StableHlo.after hostOps2 (W6 m ρ c) (Proc.devRef .tc main_v61) = _
  after_results_simp <;> rfl

end Cert.KernelIdeal.Chain

end
-- ==== Proof.Dense.lean ====
/-
  The reference's two dense transforms, characterised entry by entry on the extended reals. An array whose entry
  (p, q) is the sum over k of X[p,k] · W[k,q] IS `x · W1` (the host's product read at an index); an array whose entry
  (p, 0) is the sum over k of max(A[p,k] + b[k], 0) · W[k,0] IS `max(A + b1, 0) · W2`, the bias spread over the rows and the
  clamp taken against the zero array. No finiteness is used: both sides are the same sums of the same products.
-/
import proofs.«160885_j77197742178451_1_alg».proof.Proof.Stages
import proofs.«160885_j77197742178451_1_alg».proof.Proof.LibMatmul
import Idealize.ShloMosaic.Lib.Pipeline.Value
import Idealize.ShloMosaic.Lib.ValueIdx
import Idealize.ShloMosaic.PureOps.Ideal.Laws

noncomputable section

open scoped BigOperators

namespace Cert.Bridge.Dense

open Idealize.ShloMosaic Idealize.ShloMosaic.ValueIdx Cert.ReferenceIdeal Cert.ReferenceIdeal.Gen Cert.Bridge

/-- The bias row spread over the nodes, read at (p, k), is b[k]. -/
theorem bias_apply (b1 : FVec Ideal S128 .f32) (p : Fin 100000) (k : Fin 128) :
    broadcastInDim S100000x128 ![0, 1] bcast_S1x128_S100000x128_0_1 (broadcastInDim S1x128 ![1] bcast_S128_S1x128_1 b1) (ix2 p k) = b1 (ix1 k) :=
  (broadcastInDim_apply _ _ _ (ix2 p k) (ix2 (0 : Fin 1) k) (fun a => by match a with | ⟨0, _⟩ => rfl | ⟨1, _⟩ => rfl)).trans
    (broadcastInDim_apply _ _ b1 (ix2 (0 : Fin 1) k) (ix1 k) (fun a => by match a with | ⟨0, _⟩ => rfl))

/-- The zero array read anywhere is 0. -/
theorem zeros_apply (i : S100000x128.Idx) :
    broadcastInDim S100000x128 ![] bcast_S_S100000x128 (constant (F := Ideal) S_ .f32 0x00000000#32) i = 0 :=
  (broadcastInDim_apply _ _ _ i ix0 (fun a => a.elim0)).trans ((constant_apply _ _).trans Ideal.ofBits_zero_f32)

/-- The two products' dimension numbers are those of a plain matrix product. -/
theorem dot1_eq : dot_S100000x128_S128x128_S100000x128_1_0_0_1_n_n = DotDims.plain 100000 128 128 := rfl
theorem dot2_eq : dot_S100000x128_S128x1_S100000x1_1_0_0_1_n_n = DotDims.plain 100000 128 1 := rfl

/-- An array with the product's entries is the first dense transform. -/
theorem dense1_of (X : FVec Ideal S100000x128 .f32) (W : FVec Ideal S128x128 .f32) (A : FVec Ideal S100000x128 .f32)
    (h : ∀ (p : Fin 100000) (q : Fin 128), A (ix2 p q) = ∑ k : Fin 128, X (ix2 p k) * W (ix2 k q)) :
    A = Stages.dense1 (F := Ideal) X W := by
  funext i
  obtain ⟨p, q, rfl⟩ : ∃ (p : Fin 100000) (q : Fin 128), i = ix2 p q := ⟨i 0, i 1, eq_ix2 i⟩
  rw [h]
  unfold Stages.dense1
  rw [dot1_eq]
  exact (LibMatmul.dotGeneral_apply none .single X W p q).symm

/-- An array with the clamped layer's entries is the second dense transform; `B` is the bias as a 1×128 row. -/
theorem dense2_of (A : FVec Ideal S100000x128 .f32) (b1 : FVec Ideal S128 .f32) (W : FVec Ideal S128x1 .f32)
    (B : FVec Ideal S1x128 .f32) (O : FVec Ideal S100000x1 .f32)
    (hB : ∀ k : Fin 128, B (ix2 (0 : Fin 1) k) = b1 (ix1 k))
    (h : ∀ p : Fin 100000, O (ix2 p (0 : Fin 1)) = ∑ k : Fin 128, max (A (ix2 p k) + B (ix2 (0 : Fin 1) k)) 0 * W (ix2 k (0 : Fin 1))) :
    O = Stages.dense2 (F := Ideal) A b1 W := by
  funext i
  obtain ⟨p, q, rfl⟩ : ∃ (p : Fin 100000) (q : Fin 1), i = ix2 p q := ⟨i 0, i 1, eq_ix2 i⟩
  have hq : q = (0 : Fin 1) := Fin.ext (by have := q.isLt; omega)
  subst hq
  rw [h]
  unfold Stages.dense2
  rw [dot2_eq]
  refine Eq.trans (Finset.sum_congr rfl fun k _ => ?_) (LibMatmul.dotGeneral_apply none .single _ W p 0).symm
  rw [maximumf_apply, addf_apply, bias_apply, zeros_apply, hB]

end Cert.Bridge.Dense

end
-- ==== Proof.Bridge.lean ====
/-
  The idealized kernel's result is the network of Stages.lean with the REFERENCE's two dense transforms. The first
  pallas_call leaves `x · W1` (block by block the same sums as the host's product); the second leaves
  `max(a + b1, 0) · W2` of the array `a` it is given, the first layer's aggregation (its per-row sum of clamped products is
  the host product's sum, the bias read as a row instead of spread over the rows); everything between and after the calls
  is the shared host stages over the same edge lists and weights. The two facts about the calls enter as hypotheses
  `h0`, `h1`: each call's output array, entry by entry, as a sum over the 128 features.
-/
import proofs.«160885_j77197742178451_1_alg».proof.Proof.KChain
import proofs.«160885_j77197742178451_1_alg».proof.Proof.Dense
import Idealize.ShloMosaic.Lib.ValueLayout

set_option maxRecDepth 16384

noncomputable section

open scoped BigOperators

namespace Cert.KernelIdeal.Bridge

open Cert.KernelIdeal Cert.KernelIdeal.Gen Cert.KernelIdeal.Chain Cert.Bridge
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The first call's output array is `x · W1`. -/
theorem call0
    (h0 : ∀ (X : S100000x128.Idx → EReal) (W : S128x128.Idx → EReal), V3 m ρ c main_arg0 = X → V3 m ρ c main_arg2 = W →
      ∀ (p : Fin 100000) (q : Fin 128), ((dat0 (V3 m ρ) c).arrAt 2 cfg0.N : S100000x128.Idx → EReal) (ix2 p q)
        = ∑ k : Fin 128, X (ix2 p k) * W (ix2 k q)) :
    (dat0 (V3 m ρ) c).arrAt 2 cfg0.N
      = Stages.dense1 (F := Ideal) (m ((c : Thread nD τ).loc main_arg0)) (m ((c : Thread nD τ).loc main_arg2)) := by
  have e := Dense.dense1_of (W3 m ρ c (Proc.devRef .tc main_arg0)) (W3 m ρ c (Proc.devRef .tc main_arg2)) ((dat0 (V3 m ρ) c).arrAt 2 cfg0.N) (h0 _ _ rfl rfl)
  rw [W3_arg0, W3_arg2] at e
  exact e

/-- The bias the second call reads as a 1×128 row is `b1`: at (0, k) it is b1[k]. -/
theorem bias_row (k : Fin 128) :
    (W5 m ρ c (Proc.devRef .tc main_v44) : S1x128.Idx → EReal) (ix2 (0 : Fin 1) k)
      = (m ((c : Thread nD τ).loc main_arg3) : S128.Idx → EReal) (ix1 k) := by
  rw [W5_bias, W4_of_ne m ρ c main_arg3 (by decide), W3_arg3]
  exact shapeCast_a_1a_apply _ _ (0 : Fin 1) k

/-- The second call's output array is `max(a + b1, 0) · W2` of the first layer's aggregation `a` it is entered with. -/
theorem call1
    (h1 : ∀ (A : S100000x128.Idx → EReal) (B : S1x128.Idx → EReal) (W : S128x1.Idx → EReal),
      V5 m ρ c main_v43 = A → V5 m ρ c main_v44 = B → V5 m ρ c main_arg4 = W →
      ∀ p : Fin 100000, ((dat1 (V5 m ρ) c).arrAt 3 cfg1.N : S100000x1.Idx → EReal) (ix2 p (0 : Fin 1))
        = ∑ k : Fin 128, max (A (ix2 p k) + B (ix2 (0 : Fin 1) k)) 0 * W (ix2 k (0 : Fin 1))) :
    (dat1 (V5 m ρ) c).arrAt 3 cfg1.N
      = Stages.dense2 (F := Ideal) (W5 m ρ c (Proc.devRef .tc main_v43)) (m ((c : Thread nD τ).loc main_arg3)) (m ((c : Thread nD τ).loc main_arg4)) := by
  have e := Dense.dense2_of (W5 m ρ c (Proc.devRef .tc main_v43)) (m ((c : Thread nD τ).loc main_arg3)) (W5 m ρ c (Proc.devRef .tc main_arg4))
    (W5 m ρ c (Proc.devRef .tc main_v44)) ((dat1 (V5 m ρ) c).arrAt 3 cfg1.N) (bias_row m ρ c) (h1 _ _ _ rfl rfl rfl)
  rw [W5_keep_arg4, W4_of_ne m ρ c main_arg4 (by decide), W3_arg4] at e
  exact e

/-- THE KERNEL'S RESULT is the network with the reference's dense transforms. -/
theorem result
    (h0 : ∀ (X : S100000x128.Idx → EReal) (W : S128x128.Idx → EReal), V3 m ρ c main_arg0 = X → V3 m ρ c main_arg2 = W →
      ∀ (p : Fin 100000) (q : Fin 128), ((dat0 (V3 m ρ) c).arrAt 2 cfg0.N : S100000x128.Idx → EReal) (ix2 p q)
        = ∑ k : Fin 128, X (ix2 p k) * W (ix2 k q))
    (h1 : ∀ (A : S100000x128.Idx → EReal) (B : S1x128.Idx → EReal) (W : S128x1.Idx → EReal),
      V5 m ρ c main_v43 = A → V5 m ρ c main_v44 = B → V5 m ρ c main_arg4 = W →
      ∀ p : Fin 100000, ((dat1 (V5 m ρ) c).arrAt 3 cfg1.N : S100000x1.Idx → EReal) (ix2 p (0 : Fin 1))
        = ∑ k : Fin 128, max (A (ix2 p k) + B (ix2 (0 : Fin 1) k)) 0 * W (ix2 k (0 : Fin 1))) :
    W7 m ρ c (Proc.devRef .tc main_v61)
      = Stages.network (F := Ideal) (Stages.dense1 (F := Ideal) (m ((c : Thread nD τ).loc main_arg0)) (m ((c : Thread nD τ).loc main_arg2)))
          (fun a => Stages.dense2 (F := Ideal) a (m ((c : Thread nD τ).loc main_arg3)) (m ((c : Thread nD τ).loc main_arg4)))
          (m ((c : Thread nD τ).loc main_arg1)) (m ((c : Thread nD τ).loc main_arg5)) := by
  rw [W7_out, W6_out, W6_of_ne m ρ c main_v3 (by decide), W6_of_ne m ρ c main_v6 (by decide), W6_of_ne m ρ c main_v29 (by decide),
    W6_of_ne m ρ c main_arg5 (by decide), W5_keep_v3, W5_keep_v6, W5_keep_v29, W5_keep_arg5,
    call1 m ρ c h1, W5_agg, W4_out, call0 m ρ c h0,
    W4_of_ne m ρ c main_v3 (by decide), W4_of_ne m ρ c main_v6 (by decide), W4_of_ne m ρ c main_v29 (by decide), W4_of_ne m ρ c main_arg5 (by decide),
    W3_src, W3_dst, W3_nrm, W3_arg5]
  rfl

end Cert.KernelIdeal.Bridge

end
-- ==== Proof.lean ====
/-
  A two-layer graph convolution with self loops and symmetric normalisation, out = Â·max(Â·(x·W1) + b1, 0)·W2 + b2 with
  Â[i, j] the sum over the edges j → i of deg(j)^(-1/2)·deg(i)^(-1/2), computed by gathers and scatter-adds over the edge list.
  The kernel and the reference share every gather, scatter-add and the degree normalisation, operation for operation;
  they differ in the two dense transforms. The kernel computes x·W1 in 20 row blocks of 5000 rows on the matrix unit
  (operands rounded to bf16, the identity on the extended reals) where the reference takes one host product: entry (p, q)
  is the sum over k of x[p,k]·W1[k,q] either way. And it fuses the first layer's bias, the clamp at zero and the second
  transform into one pass per row block — row p of the result is the sum over k of max(a[p,k] + b1[k], 0)·W2[k,0] — where
  the reference adds the broadcast bias, clamps, and takes a 100000×128 by 128×1 host product: the same sum of the same
  products. So both programs are one function of the arguments (Stages.lean's `network` around those two transforms), and
  no law that needs finiteness is used: the precondition is never opened. The ideal pass rewrote nothing, so
  `preserves` is trivial; the kernels' frames are the generated ones and the reference's frame is its run.
-/
import proofs.«160885_j77197742178451_1_alg».proof.Defs
import proofs.«160885_j77197742178451_1_alg».proof.Proof.Gen.Kernel
import proofs.«160885_j77197742178451_1_alg».proof.Proof.Gen.Kernel.Skeleton
import proofs.«160885_j77197742178451_1_alg».proof.Proof.Gen.Kernel.Launch
import proofs.«160885_j77197742178451_1_alg».proof.Proof.Gen.Kernel.Points
import proofs.«160885_j77197742178451_1_alg».proof.Proof.Gen.Kernel.Frame
import proofs.«160885_j77197742178451_1_alg».proof.Proof.Gen.KernelIdeal
import proofs.«160885_j77197742178451_1_alg».proof.Proof.Gen.KernelIdeal.Skeleton
import proofs.«160885_j77197742178451_1_alg».proof.Proof.Gen.KernelIdeal.Launch
import proofs.«160885_j77197742178451_1_alg».proof.Proof.Gen.KernelIdeal.Points
import proofs.«160885_j77197742178451_1_alg».proof.Proof.Gen.KernelIdeal.Frame
import proofs.«160885_j77197742178451_1_alg».proof.Proof.Gen.ReferenceIdeal
import proofs.«160885_j77197742178451_1_alg».proof.Proof.Gen.Pre_finite_inputs
import proofs.«160885_j77197742178451_1_alg».proof.Proof.KRun
import proofs.«160885_j77197742178451_1_alg».proof.Proof.RefRun
import proofs.«160885_j77197742178451_1_alg».proof.Proof.RefValue
import proofs.«160885_j77197742178451_1_alg».proof.Proof.Layer1
import proofs.«160885_j77197742178451_1_alg».proof.Proof.Layer2
import proofs.«160885_j77197742178451_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel and its idealization run, and leave their arguments alone: the generated frames. -/
theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the network of Stages.lean around `x · W1` and `max(· + b1, 0) · W2`, evaluated at arguments that
    agree; no precondition is used. -/
theorem algebraic : Cert.algebraic_KernelIdeal_ReferenceIdeal := by
  intro m ρ m' ρ' _ hagree
  refine ⟨fun c => Cert.Bridge.Stages.network (F := Ideal)
      (Cert.Bridge.Stages.dense1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (fun a => Cert.Bridge.Stages.dense2 (F := Ideal) a (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Bridge.result m ρ c
          (fun X W hX hW p q => Cert.Bridge.Layer1.region0_apply_sum (Cert.KernelIdeal.Gen.V3 m ρ) c X W hX hW p q)
          (fun A B W hA hB hW p => Cert.Bridge.Layer2.region1_apply_sum (Cert.KernelIdeal.Gen.V5 m ρ) c A B W hA hB hW p)), (h c).2⟩)
      (Cert.KernelIdeal.RunValue.run m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
